-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 56
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x128, .f32⟩
  | .hbm, ⟨38, _⟩ => ⟨S50000x128, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .bf16⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x128, .f32⟩
  | .hbm, ⟨54, _⟩ => ⟨S1x64, .f32⟩
  | .hbm, ⟨55, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S50000x64.size a
  hwx1_8 : ∀ i : grid1.Coords, EltTy.bits .f32 = 32 ∨ (Rect.block (s := S50000x64) S2000x64.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The run of the two-call program with its RESULT array named.

  The program is: host operations (degrees, reciprocal degrees, the first neighbour sum), the first tiled call,
  host operations (the second neighbour sum over the first call's output), the second tiled call. Every weakly fair
  execution terminates without a fault; at the end the result buffer holds what the second call's write-backs
  leave in it, folded over its 25 grid points from the contents the second call was entered with, and the eleven
  argument arrays hold what they held at launch.
-/
import proofs.«137868_j90658169683982_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result buffer at the last boundary's contents and the arguments as launched. -/
theorem run_named : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

/-- The result buffer at the last boundary is the second call's output array after its last grid point. -/
theorem result_arr (c : Dev nD) : W4 m ρ c (Proc.devRef .tc main_v34) = (dat1 (V3 m ρ) c).arrAt 8 cfg1.N :=
  W4_arr m ρ c 8

end Cert.KernelIdeal.Hand

end
-- ==== Proof.Spec.lean ====
/-
  The mathematics of the two-layer mean-aggregation graph convolution, index by index on the extended reals.

  One layer takes node features `h` (one row per node), the per-node SUM `s` of the neighbours' features, and a
  per-node factor `r`; at node `n`, output feature `f` it is
      max ( Σ_k h[n,k]·Ws[k,f]  +  Σ_k (s[n,k]·r[n])·Wn[k,f]  +  b[f] , 0 ).
  The last stage is the affine map  Σ_k y[n,k]·Wo[k,f] + bo[f].
  Both are ROW-LOCAL: the value at node `n` reads row `n` of `h`, `s`, `r` only, so a tile of rows of the result is
  the same formula on the tiles of rows of the operands (`conv_rows`, `proj_rows`).
  The mean: with `d = max(deg, 1)` the factor `r = 1/d` multiplies the sum, and `s · (1/d) = s / d` on EVERY extended
  real, because `d ≥ 1` is never zero and division off zero is the product with the inverse (`mul_recip_eq_div`).
-/
import Idealize.ShloMosaic.PureOps.Ideal
import Idealize.ShloMosaic.PureOps.IdealRules
import Idealize.ShloMosaic.PureOps.Ideal.Laws
import Idealize.ShloMosaic.Lib.ValueIdx

noncomputable section

namespace Cert.Sage

open Idealize.ShloMosaic Idealize.ShloMosaic.ValueIdx

/-- A matrix of extended reals over literal extents. -/
abbrev Mat (r c : Nat) : Type := (⟨2, ![r, c]⟩ : Shape).Idx → EReal

/-- One graph-convolution layer with its rectifier, at node `i 0` and output feature `i 1`. -/
def conv {N : Nat} (h s : Mat N 128) (r : Mat N 1) (ws wn : Mat 128 128) (b : Mat 1 128) : Mat N 128 := fun i =>
  max (((∑ k : Fin 128, h (ix2 (i 0) k) * ws (ix2 k (i 1)))
        + ∑ k : Fin 128, (s (ix2 (i 0) k) * r (ix2 (i 0) 0)) * wn (ix2 k (i 1)))
       + b (ix2 0 (i 1))) 0

/-- The output projection at node `i 0` and output feature `i 1`. -/
def proj {N : Nat} (y : Mat N 128) (wo : Mat 128 64) (bo : Mat 1 64) : Mat N 64 := fun i =>
  (∑ k : Fin 128, y (ix2 (i 0) k) * wo (ix2 k (i 1))) + bo (ix2 0 (i 1))

/-- A layer is row-local: where row `y 0` of the primed node operands is row `i 0` of the unprimed ones, column
    `y 1` of the primed weights and bias is column `i 1` of the unprimed ones, the two layers agree at `y` and `i`. -/
theorem conv_rows {N M : Nat} (h s : Mat N 128) (r : Mat N 1) (h' s' : Mat M 128) (r' : Mat M 1)
    (ws wn ws' wn' : Mat 128 128) (b b' : Mat 1 128) (y : (⟨2, ![M, 128]⟩ : Shape).Idx) (i : (⟨2, ![N, 128]⟩ : Shape).Idx)
    (hh : ∀ k : Fin 128, h' (ix2 (y 0) k) = h (ix2 (i 0) k)) (hs : ∀ k : Fin 128, s' (ix2 (y 0) k) = s (ix2 (i 0) k))
    (hr : r' (ix2 (y 0) 0) = r (ix2 (i 0) 0))
    (hws : ∀ k : Fin 128, ws' (ix2 k (y 1)) = ws (ix2 k (i 1))) (hwn : ∀ k : Fin 128, wn' (ix2 k (y 1)) = wn (ix2 k (i 1)))
    (hb : b' (ix2 0 (y 1)) = b (ix2 0 (i 1))) :
    conv h' s' r' ws' wn' b' y = conv h s r ws wn b i := by
  unfold conv
  simp only [hh, hs, hr, hws, hwn, hb]

/-- The projection is row-local in the same sense. -/
theorem proj_rows {N M : Nat} (y : Mat N 128) (y' : Mat M 128) (wo wo' : Mat 128 64) (bo bo' : Mat 1 64)
    (j : (⟨2, ![M, 64]⟩ : Shape).Idx) (i : (⟨2, ![N, 64]⟩ : Shape).Idx)
    (hy : ∀ k : Fin 128, y' (ix2 (j 0) k) = y (ix2 (i 0) k))
    (hwo : ∀ k : Fin 128, wo' (ix2 k (j 1)) = wo (ix2 k (i 1))) (hbo : bo' (ix2 0 (j 1)) = bo (ix2 0 (i 1))) :
    proj y' wo' bo' j = proj y wo bo i := by
  unfold proj
  simp only [hy, hwo, hbo]

/-- The bit pattern of the float one denotes the real one. -/
theorem one_f32 : Ideal.ofBits .f32 0x3F800000#32 = 1 := IdealRules.sign_bit.ideal_onePat .f32

/-- A degree clamped below by one is never zero. -/
theorem max_one_ne_zero (a : EReal) : max a 1 ≠ 0 :=
  ne_of_gt (lt_of_lt_of_le zero_lt_one (le_max_right a 1))

/-- Multiplying by the reciprocal of a clamped degree is dividing by it, at every extended real `s` (the infinities
    included): the divisor is not zero, so both sides are `s · d⁻¹`. -/
theorem mul_recip_eq_div (s a : EReal) : s * Ideal.div 1 (max a 1) = Ideal.div s (max a 1) := by
  unfold Ideal.div
  rw [if_neg (max_one_ne_zero a), if_neg (max_one_ne_zero a), one_mul]

end Cert.Sage

end
-- ==== Proof.Pay.lean ====
/-
  What each tiled call computes on one tile of 2000 nodes, as the layer formulas of the specification.

  The first call's stored value is one graph-convolution layer of its six loaded tiles: two products of a
  [2000,128] tile with a [128,128] weight into a zero accumulator (each entry a sum over the 128 contracted
  features), the neighbour sum scaled by the per-node factor broadcast along the feature axis, the bias broadcast
  along the node axis, the maximum with zero. The changes of float format are the identity on the extended reals.
  The second call's stored value is the same layer followed by the output projection.
-/
import proofs.«137868_j90658169683982_2_alg».proof.Proof.Gen.KernelIdeal.Skeleton
import proofs.«137868_j90658169683982_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Cert.Sage
open Idealize.ShloMosaic Idealize.ShloMosaic.ValueIdx

/-! ## The two matrix products at an entry -/

theorem lhs_hid_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_hid_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_hid_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_hid_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] tile times a [128,128] weight into a zero accumulator: entry (n, f) is Σ_k l[n,k]·r[k,f]. -/
theorem mm_hidden {φ₁ φ₂ : FTy} (l : FVec Ideal S2000x128 φ₁) (r : FVec Ideal S128x128 φ₂) (j : S2000x128.Idx) :
    matmul dot_S2000x128_S128x128_S2000x128_1_0_0_1_n_n none l r (constant (F := Ideal) S2000x128 .f32 0x00000000#32) j
      = ∑ k : Fin 128, l (ix2 (j 0) k) * r (ix2 k (j 1)) := by
  refine (Ideal.matmul_constant_zero_apply dot_S2000x128_S128x128_S2000x128_1_0_0_1_n_n none l r j).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 (j 0) k := funext fun a => Fin.ext (by
    match a with
    | ⟨0, _⟩ => exact lhs_hid_0 _ _
    | ⟨1, _⟩ => exact (lhs_hid_1 _ _).trans hk)
  have er : dot_S2000x128_S128x128_S2000x128_1_0_0_1_n_n.rhsIdx j ((contrEquiv1 dot_S2000x128_S128x128_S2000x128_1_0_0_1_n_n 128 rfl rfl).symm k) = ix2 k (j 1) := funext fun a => Fin.ext (by
    match a with
    | ⟨0, _⟩ => exact (rhs_hid_0 _ _).trans hk
    | ⟨1, _⟩ => exact rhs_hid_1 _ _)
  rw [el, er]
  rfl

theorem lhs_out_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_out_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_out_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_out_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A [2000,128] tile times the [128,64] output weight into a zero accumulator: entry (n, f) is Σ_k l[n,k]·r[k,f]. -/
theorem mm_out {φ₁ φ₂ : FTy} (l : FVec Ideal S2000x128 φ₁) (r : FVec Ideal S128x64 φ₂) (j : S2000x64.Idx) :
    matmul dot_S2000x128_S128x64_S2000x64_1_0_0_1_n_n none l r (constant (F := Ideal) S2000x64 .f32 0x00000000#32) j
      = ∑ k : Fin 128, l (ix2 (j 0) k) * r (ix2 k (j 1)) := by
  refine (Ideal.matmul_constant_zero_apply dot_S2000x128_S128x64_S2000x64_1_0_0_1_n_n none l r j).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx j ((contrEquiv1 dot_S2000x128_S128x64_S2000x64_1_0_0_1_n_n 128 rfl rfl).symm k) = ix2 (j 0) k := funext fun a => Fin.ext (by
    match a with
    | ⟨0, _⟩ => exact lhs_out_0 _ _
    | ⟨1, _⟩ => exact (lhs_out_1 _ _).trans hk)
  have er : dot_S2000x128_S128x64_S2000x64_1_0_0_1_n_n.rhsIdx j ((contrEquiv1 dot_S2000x128_S128x64_S2000x64_1_0_0_1_n_n 128 rfl rfl).symm k) = ix2 k (j 1) := funext fun a => Fin.ext (by
    match a with
    | ⟨0, _⟩ => exact (rhs_out_0 _ _).trans hk
    | ⟨1, _⟩ => exact rhs_out_1 _ _)
  rw [el, er]
  rfl

/-! ## The broadcasts at an entry -/

/-- The per-node column broadcast along the feature axis reads its node's entry. -/
theorem bcast_col (v : S2000x1.Idx → EReal) (j : S2000x128.Idx) :
    broadcastTo S2000x128 v broadcasts_S2000x1_S2000x128 j = v (ix2 (j 0) 0) :=
  broadcastTo_apply v broadcasts_S2000x1_S2000x128 j (ix2 (j 0) 0) (fun a => match a with
    | ⟨0, _⟩ => by show (j 0).val = if (2000 : Nat) = 1 then 0 else (j 0).val; rw [if_neg (by decide)]
    | ⟨1, _⟩ => by show 0 = if (1 : Nat) = 1 then 0 else (j 1).val; rw [if_pos rfl])

/-- The hidden bias row broadcast along the node axis reads its feature's entry. -/
theorem bcast_row (v : S1x128.Idx → EReal) (j : S2000x128.Idx) :
    broadcastTo S2000x128 v broadcasts_S1x128_S2000x128 j = v (ix2 0 (j 1)) :=
  broadcastTo_apply v broadcasts_S1x128_S2000x128 j (ix2 0 (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The output bias row broadcast along the node axis reads its feature's entry. -/
theorem bcast_row_out (v : S1x64.Idx → EReal) (j : S2000x64.Idx) :
    broadcastTo S2000x64 v broadcasts_S1x64_S2000x64 j = v (ix2 0 (j 1)) :=
  broadcastTo_apply v broadcasts_S1x64_S2000x64 j (ix2 0 (j 1)) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-! ## The stored values -/

/-- The first call stores one layer of its tiles. -/
theorem pay0_eq (x0 x1 : Vec Ideal S2000x128 .f32) (x2 : Vec Ideal S2000x1 .f32) (x3 x4 : Vec Ideal S128x128 .f32)
    (x5 : Vec Ideal S1x128 .f32) :
    k0_pay1 (F := Ideal) x0 x1 x2 x3 x4 x5 = conv (N := 2000) x0 x1 x2 x3 x4 x5 := by
  funext j
  unfold k0_pay1 conv
  simp only [shapeCast_self]
  simp only [truncf_apply, maximumf_apply, addf_apply, broadcast_apply]
  rw [mm_hidden, mm_hidden, bcast_row]
  simp only [truncf_apply, mulf_apply, bcast_col]
  show max _ (Ideal.ofBits .f32 0x00000000#32) = _
  rw [Ideal.ofBits_zero_f32]

/-- The second call stores the projection of one layer of its tiles. -/
theorem pay1_eq (x0 : Vec Ideal S2000x128 .bf16) (x1 : Vec Ideal S2000x128 .f32) (x2 : Vec Ideal S2000x1 .f32)
    (x3 x4 : Vec Ideal S128x128 .f32) (x5 : Vec Ideal S1x128 .f32) (x6 : Vec Ideal S128x64 .f32) (x7 : Vec Ideal S1x64 .f32) :
    k1_pay1 (F := Ideal) x0 x1 x2 x3 x4 x5 x6 x7 = proj (N := 2000) (conv (N := 2000) x0 x1 x2 x3 x4 x5) x6 x7 := by
  funext j
  unfold k1_pay1 proj
  simp only [shapeCast_self]
  simp only [addf_apply]
  rw [mm_out, bcast_row_out]
  congr 1
  refine Finset.sum_congr rfl fun k _ => ?_
  congr 1
  unfold conv
  simp only [truncf_apply, maximumf_apply, addf_apply, broadcast_apply]
  rw [mm_hidden, mm_hidden, bcast_row]
  simp only [truncf_apply, mulf_apply, bcast_col]
  show max _ (Ideal.ofBits .f32 0x00000000#32) = _
  rw [Ideal.ofBits_zero_f32]

end Cert.KernelIdeal.Hand

end
-- ==== Proof.Reg0.lean ====
/-
  What the first tiled call leaves in its output array: one graph-convolution layer of the arrays it was entered
  with, whole.

  Grid point `t` (of 25) works on nodes 2000·t … 2000·t + 1999: the node-feature tile, the neighbour-sum tile and
  the per-node factor tile are rows 2000·t … of their arrays, the two weights and the bias are read whole at every
  point, and the tile written back is rows 2000·t … of the output. The layer is row-local, so the written tile is the
  layer of the whole arrays restricted to those rows; the 25 tiles cover every node (node `n` is in tile `n / 2000`),
  so the output array ends as the layer of the whole arrays.
-/
import proofs.«137868_j90658169683982_2_alg».proof.Proof.Gen.KernelIdeal.Frame
import proofs.«137868_j90658169683982_2_alg».proof.Proof.Pay
import Idealize.ShloMosaic.Lib.Pipeline.Value

set_option maxRecDepth 16384

noncomputable section

namespace Cert.KernelIdeal.Hand

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first layer of the arrays the first call is entered with. -/
abbrev layer1 (c : Dev nD) : S50000x128.Idx → EReal :=
  conv (N := 50000) (V c main_arg0) (V c main_v18) (V c main_v8) (V c main_arg3) (V c main_arg4) (V c main_v19)

/-- The printed index maps over the grid: the three node windows and the output window sit at block row `t`,
    block column 0; the weights and the bias at block (0, 0). -/
theorem idx_first : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is tile `t` of the first layer. -/
theorem flushed_first (c : Dev nD) (t : Fin cfg0.N) :
    (dat0 V c).flushed 6 t = ((cfg0.win 6).blk t).view.read (Elt Ideal) (layer1 V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x128) hz, View.ld_unit_zero (S := S1x128) hz]
  rw [pay0_eq]
  obtain ⟨e00, e01, e10, e11, e20, e21, e30, e31, e40, e41, e50, e51, e60, e61⟩ := idx_first t
  funext y
  show conv (iblk0 V c 0 t) (iblk0 V c 1 t) (iblk0 V c 2 t) (iblk0 V c 3 t) (iblk0 V c 4 t) (iblk0 V c 5 t) y
    = layer1 V c (((cfg0.win 6).blk t).view.emb y)
  refine conv_rows _ _ _ _ _ _ _ _ _ _ _ _ y (((cfg0.win 6).blk t).view.emb y) (fun k => ?_) (fun k => ?_) ?_ (fun k => ?_) (fun k => ?_) ?_
  · show V c main_arg0 (((cfg0.win 0).blk t).view.emb (ix2 (y 0) k)) = V c main_arg0 (ix2 ((((cfg0.win 6).blk t).view.emb y) 0) k)
    refine congrArg _ (funext fun a => Fin.ext ?_)
    match a with
    | ⟨0, _⟩ => show win0_0.index t (0 : Fin 2) * 2000 + 1 * (y 0).val = win0_6.index t (0 : Fin 2) * 2000 + 1 * (y 0).val; omega
    | ⟨1, _⟩ => show win0_0.index t (1 : Fin 2) * 128 + 1 * k.val = k.val; omega
  · show V c main_v18 (((cfg0.win 1).blk t).view.emb (ix2 (y 0) k)) = V c main_v18 (ix2 ((((cfg0.win 6).blk t).view.emb y) 0) k)
    refine congrArg _ (funext fun a => Fin.ext ?_)
    match a with
    | ⟨0, _⟩ => show win0_1.index t (0 : Fin 2) * 2000 + 1 * (y 0).val = win0_6.index t (0 : Fin 2) * 2000 + 1 * (y 0).val; omega
    | ⟨1, _⟩ => show win0_1.index t (1 : Fin 2) * 128 + 1 * k.val = k.val; omega
  · show V c main_v8 (((cfg0.win 2).blk t).view.emb (ix2 (y 0) 0)) = V c main_v8 (ix2 ((((cfg0.win 6).blk t).view.emb y) 0) 0)
    refine congrArg _ (funext fun a => Fin.ext ?_)
    match a with
    | ⟨0, _⟩ => show win0_2.index t (0 : Fin 2) * 2000 + 1 * (y 0).val = win0_6.index t (0 : Fin 2) * 2000 + 1 * (y 0).val; omega
    | ⟨1, _⟩ => show win0_2.index t (1 : Fin 2) * 1 + 1 * 0 = 0; omega
  · show V c main_arg3 (((cfg0.win 3).blk t).view.emb (ix2 k (y 1))) = V c main_arg3 (ix2 k ((((cfg0.win 6).blk t).view.emb y) 1))
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (y 1).val = win0_6.index t (1 : Fin 2) * 128 + 1 * (y 1).val; omega
  · show V c main_arg4 (((cfg0.win 4).blk t).view.emb (ix2 k (y 1))) = V c main_arg4 (ix2 k ((((cfg0.win 6).blk t).view.emb y) 1))
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * (y 1).val = win0_6.index t (1 : Fin 2) * 128 + 1 * (y 1).val; omega
  · show V c main_v19 (((cfg0.win 5).blk t).view.emb (ix2 0 (y 1))) = V c main_v19 (ix2 0 ((((cfg0.win 6).blk t).view.emb y) 1))
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * (y 1).val = win0_6.index t (1 : Fin 2) * 128 + 1 * (y 1).val; omega

/-- A node index is in tile `t` of the output iff its node coordinate is in rows 2000·t … 2000·t + 1999. -/
theorem mem_first (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v20).slice (win0_6.rect t)).set ↔ _
  rw [View.set_slice_whole, Rect.mem_set_unit]
  exact Iff.rfl

/-- The first call's output array after its last grid point is the first layer of the arrays it was entered with. -/
theorem final_first (c : Dev nD) : (dat0 V c).arrAt 6 cfg0.N = layer1 V c :=
  (dat0 V c).arrAt_eq_of_cover 6 (layer1 V c) (fun t _ => flushed_first V c t) fun i => by
    have hi0 : (i 0).val < 50000 := (i 0).isLt
    have hi1 : (i 1).val < 128 := (i 1).isLt
    have hN : cfg0.N = 25 := N_0
    let t : Fin cfg0.N := ⟨(i 0).val / 2000, by omega⟩
    obtain ⟨e00, e01, e10, e11, e20, e21, e30, e31, e40, e41, e50, e51, e60, e61⟩ := idx_first t
    have ht : t.val = (i 0).val / 2000 := rfl
    refine ⟨t, flush0_6 t, ?_⟩
    rw [mem_first]
    intro a
    match a with
    | ⟨0, _⟩ => show win0_6.index t (0 : Fin 2) * 2000 ≤ (i 0).val ∧ (i 0).val < win0_6.index t (0 : Fin 2) * 2000 + 2000; omega
    | ⟨1, _⟩ => show win0_6.index t (1 : Fin 2) * 128 ≤ (i 1).val ∧ (i 1).val < win0_6.index t (1 : Fin 2) * 128 + 128; omega

end Cert.KernelIdeal.Hand

end
-- ==== Proof.Reg1.lean ====
/-
  What the second tiled call leaves in its output array: the output projection of one graph-convolution layer of the
  arrays it was entered with, whole.

  As in the first call, grid point `t` (of 25) works on nodes 2000·t … 2000·t + 1999: the three node windows are rows
  2000·t … of their arrays, the three weights and two biases are read whole, and the written tile is rows 2000·t … of
  the [50000,64] output. Layer and projection are row-local and the 25 tiles cover every node.
-/
import proofs.«137868_j90658169683982_2_alg».proof.Proof.Gen.KernelIdeal.Frame
import proofs.«137868_j90658169683982_2_alg».proof.Proof.Pay
import proofs.«137868_j90658169683982_2_alg».proof.Proof.Reg0
import Idealize.ShloMosaic.Lib.Pipeline.Value

set_option maxRecDepth 16384

noncomputable section

namespace Cert.KernelIdeal.Hand

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The second layer of the arrays the second call is entered with. -/
abbrev layer2 (c : Dev nD) : S50000x128.Idx → EReal :=
  conv (N := 50000) (V c main_v20) (V c main_v31) (V c main_v8) (V c main_arg6) (V c main_arg7) (V c main_v32)

/-- Its output projection. -/
abbrev outOf (c : Dev nD) : S50000x64.Idx → EReal :=
  proj (N := 50000) (layer2 V c) (V c main_arg9) (V c main_v33)

/-- The printed index maps over the grid: the three node windows and the output window sit at block row `t`,
    block column 0; the weights and the biases at block (0, 0). -/
theorem idx_second : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- What point `t` writes back is tile `t` of the projected second layer. -/
theorem flushed_second (c : Dev nD) (t : Fin cfg1.N) :
    (dat1 V c).flushed 8 t = ((cfg1.win 8).blk t).view.read (Elt Ideal) (outOf V c) := by
  show (cfg1.win 8).cut (grid1.coords t) ((dat1 V c).after 8 t) = _
  rw [after1_8]
  unfold out1_8
  rw [View.canon_unit_zero hz]
  simp only [View.ld_unit_zero (S := S2000x128) hz, View.ld_unit_zero (S := S2000x1) hz, View.ld_unit_zero (S := S128x128) hz, View.ld_unit_zero (S := S1x128) hz, View.ld_unit_zero (S := S128x64) hz, View.ld_unit_zero (S := S1x64) hz]
  rw [pay1_eq]
  obtain ⟨e00, e01, e10, e11, e20, e21, e30, e31, e40, e41, e50, e51, e60, e61, e70, e71, e80, e81⟩ := idx_second t
  funext y
  show proj (conv (iblk1 V c 0 t) (iblk1 V c 1 t) (iblk1 V c 2 t) (iblk1 V c 3 t) (iblk1 V c 4 t) (iblk1 V c 5 t)) (iblk1 V c 6 t) (iblk1 V c 7 t) y
    = outOf V c (((cfg1.win 8).blk t).view.emb y)
  refine proj_rows _ _ _ _ _ _ y (((cfg1.win 8).blk t).view.emb y) (fun k => ?_) (fun k => ?_) ?_
  · refine conv_rows _ _ _ _ _ _ _ _ _ _ _ _ (ix2 (y 0) k) (ix2 ((((cfg1.win 8).blk t).view.emb y) 0) k) (fun k' => ?_) (fun k' => ?_) ?_ (fun k' => ?_) (fun k' => ?_) ?_
    · show V c main_v20 (((cfg1.win 0).blk t).view.emb (ix2 (y 0) k')) = V c main_v20 (ix2 ((((cfg1.win 8).blk t).view.emb y) 0) k')
      refine congrArg _ (funext fun a => Fin.ext ?_)
      match a with
      | ⟨0, _⟩ => show win1_0.index t (0 : Fin 2) * 2000 + 1 * (y 0).val = win1_8.index t (0 : Fin 2) * 2000 + 1 * (y 0).val; omega
      | ⟨1, _⟩ => show win1_0.index t (1 : Fin 2) * 128 + 1 * k'.val = k'.val; omega
    · show V c main_v31 (((cfg1.win 1).blk t).view.emb (ix2 (y 0) k')) = V c main_v31 (ix2 ((((cfg1.win 8).blk t).view.emb y) 0) k')
      refine congrArg _ (funext fun a => Fin.ext ?_)
      match a with
      | ⟨0, _⟩ => show win1_1.index t (0 : Fin 2) * 2000 + 1 * (y 0).val = win1_8.index t (0 : Fin 2) * 2000 + 1 * (y 0).val; omega
      | ⟨1, _⟩ => show win1_1.index t (1 : Fin 2) * 128 + 1 * k'.val = k'.val; omega
    · show V c main_v8 (((cfg1.win 2).blk t).view.emb (ix2 (y 0) 0)) = V c main_v8 (ix2 ((((cfg1.win 8).blk t).view.emb y) 0) 0)
      refine congrArg _ (funext fun a => Fin.ext ?_)
      match a with
      | ⟨0, _⟩ => show win1_2.index t (0 : Fin 2) * 2000 + 1 * (y 0).val = win1_8.index t (0 : Fin 2) * 2000 + 1 * (y 0).val; omega
      | ⟨1, _⟩ => show win1_2.index t (1 : Fin 2) * 1 + 1 * 0 = 0; omega
    · show V c main_arg6 (((cfg1.win 3).blk t).view.emb (ix2 k' k)) = V c main_arg6 (ix2 k' k)
      refine congrArg _ (funext fun a => Fin.ext ?_)
      match a with
      | ⟨0, _⟩ => show win1_3.index t (0 : Fin 2) * 128 + 1 * k'.val = k'.val; omega
      | ⟨1, _⟩ => show win1_3.index t (1 : Fin 2) * 128 + 1 * k.val = k.val; omega
    · show V c main_arg7 (((cfg1.win 4).blk t).view.emb (ix2 k' k)) = V c main_arg7 (ix2 k' k)
      refine congrArg _ (funext fun a => Fin.ext ?_)
      match a with
      | ⟨0, _⟩ => show win1_4.index t (0 : Fin 2) * 128 + 1 * k'.val = k'.val; omega
      | ⟨1, _⟩ => show win1_4.index t (1 : Fin 2) * 128 + 1 * k.val = k.val; omega
    · show V c main_v32 (((cfg1.win 5).blk t).view.emb (ix2 0 k)) = V c main_v32 (ix2 0 k)
      refine congrArg _ (funext fun a => Fin.ext ?_)
      match a with
      | ⟨0, _⟩ => show win1_5.index t (0 : Fin 2) * 1 + 1 * 0 = 0; omega
      | ⟨1, _⟩ => show win1_5.index t (1 : Fin 2) * 128 + 1 * k.val = k.val; omega
  · show V c main_arg9 (((cfg1.win 6).blk t).view.emb (ix2 k (y 1))) = V c main_arg9 (ix2 k ((((cfg1.win 8).blk t).view.emb y) 1))
    refine congrArg _ (funext fun a => Fin.ext ?_)
    match a with
    | ⟨0, _⟩ => show win1_6.index t (0 : Fin 2) * 128 + 1 * k.val = k.val; omega
    | ⟨1, _⟩ => show win1_6.index t (1 : Fin 2) * 64 + 1 * (y 1).val = win1_8.index t (1 : Fin 2) * 64 + 1 * (y 1).val; omega
  · show V c main_v33 (((cfg1.win 7).blk t).view.emb (ix2 0 (y 1))) = V c main_v33 (ix2 0 ((((cfg1.win 8).blk t).view.emb y) 1))
    refine congrArg _ (funext fun a => Fin.ext ?_)
    match a with
    | ⟨0, _⟩ => show win1_7.index t (0 : Fin 2) * 1 + 1 * 0 = 0; omega
    | ⟨1, _⟩ => show win1_7.index t (1 : Fin 2) * 64 + 1 * (y 1).val = win1_8.index t (1 : Fin 2) * 64 + 1 * (y 1).val; omega

/-- A node index is in tile `t` of the output iff its node coordinate is in rows 2000·t … 2000·t + 1999. -/
theorem mem_second (t : Fin cfg1.N) (i : S50000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v34).slice (win1_8.rect t)).set ↔ _
  rw [View.set_slice_whole, Rect.mem_set_unit]
  exact Iff.rfl

/-- The second call's output array after its last grid point is the projected second layer of the arrays it was
    entered with. -/
theorem final_second (c : Dev nD) : (dat1 V c).arrAt 8 cfg1.N = outOf V c :=
  (dat1 V c).arrAt_eq_of_cover 8 (outOf V c) (fun t _ => flushed_second V c t) fun i => by
    have hi0 : (i 0).val < 50000 := (i 0).isLt
    have hi1 : (i 1).val < 64 := (i 1).isLt
    have hN : cfg1.N = 25 := N_1
    let t : Fin cfg1.N := ⟨(i 0).val / 2000, by omega⟩
    obtain ⟨e00, e01, e10, e11, e20, e21, e30, e31, e40, e41, e50, e51, e60, e61, e70, e71, e80, e81⟩ := idx_second t
    have ht : t.val = (i 0).val / 2000 := rfl
    refine ⟨t, flush1_8 t, ?_⟩
    rw [mem_second]
    intro a
    match a with
    | ⟨0, _⟩ => show win1_8.index t (0 : Fin 2) * 2000 ≤ (i 0).val ∧ (i 0).val < win1_8.index t (0 : Fin 2) * 2000 + 2000; omega
    | ⟨1, _⟩ => show win1_8.index t (1 : Fin 2) * 64 ≤ (i 1).val ∧ (i 1).val < win1_8.index t (1 : Fin 2) * 64 + 64; omega

end Cert.KernelIdeal.Hand

end
-- ==== Proof.RefIs.lean ====
/-
  The reference's stages are the layer formulas of the specification.

  The reference divides the neighbour sum by the clamped degree, d = max(deg, 1), broadcast along the feature axis;
  the specification multiplies the sum by a per-node factor. For ANY factor that is 1/d at every node the two agree,
  since s·(1/d) = s/d on every extended real (d is never zero). The host's matrix products are sums over the 128
  contracted features, the bias is read at its feature, and the rectifier is the maximum with zero.
-/
import proofs.«137868_j90658169683982_2_alg».proof.Proof.Gen.ReferenceIdeal.Read
import proofs.«137868_j90658169683982_2_alg».proof.Proof.Spec

noncomputable section

namespace Cert.ReferenceIdeal.RefValue

open Cert.ReferenceIdeal Cert.ReferenceIdeal.Read Cert.Sage
open Idealize.ShloMosaic Idealize.ShloMosaic.ValueIdx

variable (x0 : (⟨S50000x128, .f32⟩ : BufTy).Contents (Elt Ideal)) (x1 x2 : (⟨S800000, .i32⟩ : BufTy).Contents (Elt Ideal))
  (x3 x4 : (⟨S128x128, .f32⟩ : BufTy).Contents (Elt Ideal)) (x5 : (⟨S128, .f32⟩ : BufTy).Contents (Elt Ideal))
  (x6 x7 : (⟨S128x128, .f32⟩ : BufTy).Contents (Elt Ideal)) (x8 : (⟨S128, .f32⟩ : BufTy).Contents (Elt Ideal))
  (x9 : (⟨S128x64, .f32⟩ : BufTy).Contents (Elt Ideal)) (x10 : (⟨S64, .f32⟩ : BufTy).Contents (Elt Ideal))

/-- The first mean aggregate at (n, k): the neighbour sum times any factor that is the reciprocal clamped degree. -/
theorem mean1 (r : Mat 50000 1)
    (hr : ∀ n : Fin 50000, r (ix2 n 0) = Ideal.div 1 (max (val_main_v13 (F := Ideal) x2 (ix1 n)) 1))
    (n : Fin 50000) (k : Fin 128) :
    val_main_v18 (F := Ideal) x0 x1 x2 (ix2 n k) = val_main_v9 (F := Ideal) x0 x1 x2 (ix2 n k) * r (ix2 n 0) := by
  have hi : idx_main_v16 (idx_main_v17 (ix2 n k)) = ix1 n := funext fun a => match a with | ⟨0, _⟩ => rfl
  rw [val_main_v18_apply, val_main_v17_apply, val_main_v16_apply, val_main_v15_apply, val_main_v14_apply, val_main_cst_3_apply, hi]
  show Ideal.div _ (max _ (Ideal.ofBits .f32 0x3F800000#32)) = _
  rw [one_f32, hr n, mul_recip_eq_div]

/-- The reference's first hidden array is the first layer of the node features, their neighbour sum, any factor that
    is the reciprocal clamped degree, the first weights and the first bias laid out as a row. -/
theorem ref_layer1 (r : Mat 50000 1) (b : Mat 1 128)
    (hr : ∀ n : Fin 50000, r (ix2 n 0) = Ideal.div 1 (max (val_main_v13 (F := Ideal) x2 (ix1 n)) 1))
    (hb : ∀ f : Fin 128, b (ix2 0 f) = x5 (ix1 f)) :
    val_main_v25 (F := Ideal) x0 x1 x2 x3 x4 x5 = conv (N := 50000) x0 (val_main_v9 (F := Ideal) x0 x1 x2) r x3 x4 b := by
  funext i
  rw [val_main_v25_apply, val_main_v24_apply, val_main_v21_apply, val_main_v19_apply, val_main_v20_apply, val_main_v23_apply,
    val_main_v22_apply, val_main_call0_v0_apply, val_main_call0_cst_apply]
  unfold conv
  have e1 : (∑ k : Fin 128, x0 (lidx_main_v19 i k) * x3 (ridx_main_v19 i k)) = ∑ k : Fin 128, x0 (ix2 (i 0) k) * x3 (ix2 k (i 1)) :=
    Finset.sum_congr rfl fun k _ => by
      rw [show lidx_main_v19 i k = ix2 (i 0) k from funext fun a => match a with | ⟨0, _⟩ => rfl | ⟨1, _⟩ => rfl,
        show ridx_main_v19 i k = ix2 k (i 1) from funext fun a => match a with | ⟨0, _⟩ => rfl | ⟨1, _⟩ => rfl]
      rfl
  have e2 : (∑ k : Fin 128, val_main_v18 (F := Ideal) x0 x1 x2 (lidx_main_v20 i k) * x4 (ridx_main_v20 i k))
      = ∑ k : Fin 128, (val_main_v9 (F := Ideal) x0 x1 x2 (ix2 (i 0) k) * r (ix2 (i 0) 0)) * x4 (ix2 k (i 1)) :=
    Finset.sum_congr rfl fun k _ => by
      rw [show lidx_main_v20 i k = ix2 (i 0) k from funext fun a => match a with | ⟨0, _⟩ => rfl | ⟨1, _⟩ => rfl,
        show ridx_main_v20 i k = ix2 k (i 1) from funext fun a => match a with | ⟨0, _⟩ => rfl | ⟨1, _⟩ => rfl]
      exact congrArg (fun z => z * x4 (ix2 k (i 1))) (mean1 x0 x1 x2 r hr (i 0) k)
  have e3 : x5 (idx_main_v22 (idx_main_v23 i)) = b (ix2 0 (i 1)) := by
    rw [hb (i 1), show idx_main_v22 (idx_main_v23 i) = ix1 (i 1) from funext fun a => match a with | ⟨0, _⟩ => rfl]
    rfl
  show max (((∑ k : Fin 128, x0 (lidx_main_v19 i k) * x3 (ridx_main_v19 i k))
      + ∑ k : Fin 128, val_main_v18 (F := Ideal) x0 x1 x2 (lidx_main_v20 i k) * x4 (ridx_main_v20 i k))
      + x5 (idx_main_v22 (idx_main_v23 i))) (Ideal.ofBits .f32 0x00000000#32) = _
  rw [e1, e2, e3, Ideal.ofBits_zero_f32]

/-- The second mean aggregate at (n, k). -/
theorem mean2 (r : Mat 50000 1)
    (hr : ∀ n : Fin 50000, r (ix2 n 0) = Ideal.div 1 (max (val_main_v39 (F := Ideal) x2 (ix1 n)) 1))
    (n : Fin 50000) (k : Fin 128) :
    val_main_v44 (F := Ideal) x0 x1 x2 x3 x4 x5 (ix2 n k) = val_main_v35 (F := Ideal) x0 x1 x2 x3 x4 x5 (ix2 n k) * r (ix2 n 0) := by
  have hi : idx_main_v42 (idx_main_v43 (ix2 n k)) = ix1 n := funext fun a => match a with | ⟨0, _⟩ => rfl
  rw [val_main_v44_apply, val_main_v43_apply, val_main_v42_apply, val_main_v41_apply, val_main_v40_apply, val_main_cst_9_apply, hi]
  show Ideal.div _ (max _ (Ideal.ofBits .f32 0x3F800000#32)) = _
  rw [one_f32, hr n, mul_recip_eq_div]

/-- The reference's second hidden array is the second layer of the first hidden array, its neighbour sum, any factor
    that is the reciprocal clamped degree, the second weights and the second bias laid out as a row. -/
theorem ref_layer2 (r : Mat 50000 1) (b : Mat 1 128)
    (hr : ∀ n : Fin 50000, r (ix2 n 0) = Ideal.div 1 (max (val_main_v39 (F := Ideal) x2 (ix1 n)) 1))
    (hb : ∀ f : Fin 128, b (ix2 0 f) = x8 (ix1 f)) :
    val_main_v51 (F := Ideal) x0 x1 x2 x3 x4 x5 x6 x7 x8
      = conv (N := 50000) (val_main_v25 (F := Ideal) x0 x1 x2 x3 x4 x5) (val_main_v35 (F := Ideal) x0 x1 x2 x3 x4 x5) r x6 x7 b := by
  funext i
  rw [val_main_v51_apply, val_main_v50_apply, val_main_v47_apply, val_main_v45_apply, val_main_v46_apply, val_main_v49_apply,
    val_main_v48_apply, val_main_call1_v0_apply, val_main_call1_cst_apply]
  unfold conv
  have e1 : (∑ k : Fin 128, val_main_v25 (F := Ideal) x0 x1 x2 x3 x4 x5 (lidx_main_v45 i k) * x6 (ridx_main_v45 i k))
      = ∑ k : Fin 128, val_main_v25 (F := Ideal) x0 x1 x2 x3 x4 x5 (ix2 (i 0) k) * x6 (ix2 k (i 1)) :=
    Finset.sum_congr rfl fun k _ => by
      rw [show lidx_main_v45 i k = ix2 (i 0) k from funext fun a => match a with | ⟨0, _⟩ => rfl | ⟨1, _⟩ => rfl,
        show ridx_main_v45 i k = ix2 k (i 1) from funext fun a => match a with | ⟨0, _⟩ => rfl | ⟨1, _⟩ => rfl]
      rfl
  have e2 : (∑ k : Fin 128, val_main_v44 (F := Ideal) x0 x1 x2 x3 x4 x5 (lidx_main_v46 i k) * x7 (ridx_main_v46 i k))
      = ∑ k : Fin 128, (val_main_v35 (F := Ideal) x0 x1 x2 x3 x4 x5 (ix2 (i 0) k) * r (ix2 (i 0) 0)) * x7 (ix2 k (i 1)) :=
    Finset.sum_congr rfl fun k _ => by
      rw [show lidx_main_v46 i k = ix2 (i 0) k from funext fun a => match a with | ⟨0, _⟩ => rfl | ⟨1, _⟩ => rfl,
        show ridx_main_v46 i k = ix2 k (i 1) from funext fun a => match a with | ⟨0, _⟩ => rfl | ⟨1, _⟩ => rfl]
      exact congrArg (fun z => z * x7 (ix2 k (i 1))) (mean2 x0 x1 x2 x3 x4 x5 r hr (i 0) k)
  have e3 : x8 (idx_main_v48 (idx_main_v49 i)) = b (ix2 0 (i 1)) := by
    rw [hb (i 1), show idx_main_v48 (idx_main_v49 i) = ix1 (i 1) from funext fun a => match a with | ⟨0, _⟩ => rfl]
    rfl
  show max (((∑ k : Fin 128, val_main_v25 (F := Ideal) x0 x1 x2 x3 x4 x5 (lidx_main_v45 i k) * x6 (ridx_main_v45 i k))
      + ∑ k : Fin 128, val_main_v44 (F := Ideal) x0 x1 x2 x3 x4 x5 (lidx_main_v46 i k) * x7 (ridx_main_v46 i k))
      + x8 (idx_main_v48 (idx_main_v49 i))) (Ideal.ofBits .f32 0x00000000#32) = _
  rw [e1, e2, e3, Ideal.ofBits_zero_f32]

/-- The reference's result is the output projection of its second hidden array. -/
theorem ref_out (y : Mat 50000 128) (bo : Mat 1 64)
    (hy : val_main_v51 (F := Ideal) x0 x1 x2 x3 x4 x5 x6 x7 x8 = y)
    (hbo : ∀ f : Fin 64, bo (ix2 0 f) = x10 (ix1 f)) :
    val_main_v55 (F := Ideal) x0 x1 x2 x3 x4 x5 x6 x7 x8 x9 x10 = proj (N := 50000) y x9 bo := by
  funext i
  rw [val_main_v55_apply, val_main_v52_apply, val_main_v54_apply, val_main_v53_apply, hy]
  unfold proj
  have e1 : (∑ k : Fin 128, y (lidx_main_v52 i k) * x9 (ridx_main_v52 i k)) = ∑ k : Fin 128, y (ix2 (i 0) k) * x9 (ix2 k (i 1)) :=
    Finset.sum_congr rfl fun k _ => by
      rw [show lidx_main_v52 i k = ix2 (i 0) k from funext fun a => match a with | ⟨0, _⟩ => rfl | ⟨1, _⟩ => rfl,
        show ridx_main_v52 i k = ix2 k (i 1) from funext fun a => match a with | ⟨0, _⟩ => rfl | ⟨1, _⟩ => rfl]
      rfl
  have e3 : x10 (idx_main_v53 (idx_main_v54 i)) = bo (ix2 0 (i 1)) := by
    rw [hbo (i 1), show idx_main_v53 (idx_main_v54 i) = ix1 (i 1) from funext fun a => match a with | ⟨0, _⟩ => rfl]
    rfl
  show (∑ k : Fin 128, y (lidx_main_v52 i k) * x9 (ridx_main_v52 i k)) + x10 (idx_main_v53 (idx_main_v54 i)) = _
  rw [e1, e3]

end Cert.ReferenceIdeal.RefValue

end
-- ==== Proof.HostTerms.lean ====
/-
  The host's computations around the two tiled calls, as functions of whole arrays.

  `clampDeg`: every node's degree (a scatter-add of ones along the destination indices) clamped below by one;
  `recipDeg`: its reciprocal as a column; `nsum`: the per-node sum of the source rows of the node features over the
  edges into the node (a gather along the sources, a scatter-add along the destinations); `nsumNarrow`: the same sum of
  an array held in the narrow float format, widened after the gather; `biasRow`, `biasRowOut`: a bias as a row.
-/
import proofs.«137868_j90658169683982_2_alg».proof.Proof.Gen.KernelIdeal

noncomputable section

namespace Cert.KernelIdeal.Hand

open Cert.KernelIdeal Cert.KernelIdeal.Gen
open Idealize.ShloMosaic

variable {F : FTy → Type} [FloatOps F]

/-- The edge sources, a negative index wrapped once by the node count, as a column of gather indices. -/
def srcIdx (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The per-node sum of the source rows of `x` over the edges into the node. -/
def nsum (x : (⟨S50000x128, .f32⟩ : BufTy).Contents (Elt F)) (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x (srcIdx src))

/-- The same sum of an array held in the narrow float format, widened after the gather. -/
def nsumNarrow (h : (⟨S50000x128, .bf16⟩ : BufTy).Contents (Elt F)) (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (extf .f32 (Host.gather gather_S50000x128_S800000x1_S800000x128_1_0_n_n_0_1_1128 h (srcIdx src)) bitsLt_bf16_f32)

/-- Every node's degree clamped below by one. -/
def clampDeg (dst : (⟨S800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))

/-- Its reciprocal, as a column. -/
def recipDeg (dst : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32)) (clampDeg dst))

/-- A hidden bias laid out as a row. -/
def biasRow (b : (⟨S128, .f32⟩ : BufTy).Contents (Elt F)) : (⟨S1x128, .f32⟩ : BufTy).Contents (Elt F) := shapeCast S1x128 b shapeCasts_S128_S1x128

/-- The output bias laid out as a row. -/
def biasRowOut (b : (⟨S64, .f32⟩ : BufTy).Contents (Elt F)) : (⟨S1x64, .f32⟩ : BufTy).Contents (Elt F) := shapeCast S1x64 b shapeCasts_S64_S1x64

end Cert.KernelIdeal.Hand

end
-- ==== Proof.HostK.lean ====
/-
  The contents of the buffers the two tiled calls are entered with, as the host's computations of the launch arrays.

  At the first call's entry: the node features and the first weights as launched, the first neighbour sum, the
  reciprocal clamped degrees as a column, the first bias as a row. At the second call's entry: the first call's output
  array, its neighbour sum (gathered in the narrow float format and widened), the same reciprocal degrees, the second
  weights and the output weight as launched, the other two biases as rows. No host operation writes an argument array,
  and the first call leaves the arrays it only reads as it found them.
-/
import proofs.«137868_j90658169683982_2_alg».proof.Proof.Gen.KernelIdeal.Frame
import proofs.«137868_j90658169683982_2_alg».proof.Proof.HostTerms
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo
open Idealize.ShloMosaic.Pipeline (Dat)

variable {F : FTy → Type} [FloatOps F]

variable (m : (ℓ : Loc nD τ sig) → Buf (Elt F) ℓ) (ρ : Dev nD → PrngReg)

/-- A launch array. -/
abbrev X (c : Dev nD) (b : Ref sig .tc) : Buf (Elt F) ((c.tc : Thread nD τ).loc b) := m ((c.tc : Thread nD τ).loc b)

/-! ## At the first call's entry -/

set_option maxHeartbeats 4000000 in
theorem V1_arg0 (c : Dev nD) : V1 m ρ c main_arg0 = X m c main_arg0 := by
  show StableHlo.after hostOps0 (W0 m ρ c) (Proc.devRef .tc main_arg0) = _
  after_results
set_option maxHeartbeats 4000000 in
theorem V1_arg3 (c : Dev nD) : V1 m ρ c main_arg3 = X m c main_arg3 := by
  show StableHlo.after hostOps0 (W0 m ρ c) (Proc.devRef .tc main_arg3) = _
  after_results
set_option maxHeartbeats 4000000 in
theorem V1_arg4 (c : Dev nD) : V1 m ρ c main_arg4 = X m c main_arg4 := by
  show StableHlo.after hostOps0 (W0 m ρ c) (Proc.devRef .tc main_arg4) = _
  after_results
set_option maxHeartbeats 4000000 in
theorem V1_sum (c : Dev nD) : V1 m ρ c main_v18 = nsum (X m c main_arg0) (X m c main_arg1) (X m c main_arg2) := by
  show StableHlo.after hostOps0 (W0 m ρ c) (Proc.devRef .tc main_v18) = _
  after_results
  rfl
set_option maxHeartbeats 4000000 in
theorem V1_recip (c : Dev nD) : V1 m ρ c main_v8 = recipDeg (X m c main_arg2) := by
  show StableHlo.after hostOps0 (W0 m ρ c) (Proc.devRef .tc main_v8) = _
  after_results
  rfl
set_option maxHeartbeats 4000000 in
theorem V1_bias (c : Dev nD) : V1 m ρ c main_v19 = biasRow (X m c main_arg5) := by
  show StableHlo.after hostOps0 (W0 m ρ c) (Proc.devRef .tc main_v19) = _
  after_results
  rfl

/-! ## Between the calls -/

set_option maxHeartbeats 4000000 in
theorem W2_arg1 (c : Dev nD) : W2 m ρ c (Proc.devRef .tc main_arg1) = X m c main_arg1 :=
  (W2_of_ne m ρ c main_arg1 (by decide)).trans (by
    show StableHlo.after hostOps0 (W0 m ρ c) (Proc.devRef .tc main_arg1) = _
    after_results)
set_option maxHeartbeats 4000000 in
theorem W2_arg2 (c : Dev nD) : W2 m ρ c (Proc.devRef .tc main_arg2) = X m c main_arg2 :=
  (W2_of_ne m ρ c main_arg2 (by decide)).trans (by
    show StableHlo.after hostOps0 (W0 m ρ c) (Proc.devRef .tc main_arg2) = _
    after_results)
set_option maxHeartbeats 4000000 in
theorem W2_arg6 (c : Dev nD) : W2 m ρ c (Proc.devRef .tc main_arg6) = X m c main_arg6 :=
  (W2_of_ne m ρ c main_arg6 (by decide)).trans (by
    show StableHlo.after hostOps0 (W0 m ρ c) (Proc.devRef .tc main_arg6) = _
    after_results)
set_option maxHeartbeats 4000000 in
theorem W2_arg7 (c : Dev nD) : W2 m ρ c (Proc.devRef .tc main_arg7) = X m c main_arg7 :=
  (W2_of_ne m ρ c main_arg7 (by decide)).trans (by
    show StableHlo.after hostOps0 (W0 m ρ c) (Proc.devRef .tc main_arg7) = _
    after_results)
set_option maxHeartbeats 4000000 in
theorem W2_arg8 (c : Dev nD) : W2 m ρ c (Proc.devRef .tc main_arg8) = X m c main_arg8 :=
  (W2_of_ne m ρ c main_arg8 (by decide)).trans (by
    show StableHlo.after hostOps0 (W0 m ρ c) (Proc.devRef .tc main_arg8) = _
    after_results)
set_option maxHeartbeats 4000000 in
theorem W2_arg9 (c : Dev nD) : W2 m ρ c (Proc.devRef .tc main_arg9) = X m c main_arg9 :=
  (W2_of_ne m ρ c main_arg9 (by decide)).trans (by
    show StableHlo.after hostOps0 (W0 m ρ c) (Proc.devRef .tc main_arg9) = _
    after_results)
set_option maxHeartbeats 4000000 in
theorem W2_arg10 (c : Dev nD) : W2 m ρ c (Proc.devRef .tc main_arg10) = X m c main_arg10 :=
  (W2_of_ne m ρ c main_arg10 (by decide)).trans (by
    show StableHlo.after hostOps0 (W0 m ρ c) (Proc.devRef .tc main_arg10) = _
    after_results)

/-- The first call's output array, where the second call and the host between them find it. -/
theorem W2_hidden (c : Dev nD) : W2 m ρ c (Proc.devRef .tc main_v20) = (dat0 (V1 m ρ) c).arrAt 6 cfg0.N := W2_arr m ρ c 6

/-- The reciprocal degrees are a window the first call only reads. -/
theorem W2_recip (c : Dev nD) : W2 m ρ c (Proc.devRef .tc main_v8) = recipDeg (X m c main_arg2) :=
  ((W2_arr m ρ c 2).trans (((dat0 (V1 m ρ) c).arrAt_in 2 rfl _).trans (A_eq0 (V1 m ρ) c 2))).trans (V1_recip m ρ c)

/-! ## At the second call's entry -/

set_option maxHeartbeats 4000000 in
theorem V3_hidden (c : Dev nD) : V3 m ρ c main_v20 = (dat0 (V1 m ρ) c).arrAt 6 cfg0.N := by
  show StableHlo.after hostOps1 (W2 m ρ c) (Proc.devRef .tc main_v20) = _
  after_results
  exact W2_hidden m ρ c
set_option maxHeartbeats 4000000 in
theorem V3_recip (c : Dev nD) : V3 m ρ c main_v8 = recipDeg (X m c main_arg2) := by
  show StableHlo.after hostOps1 (W2 m ρ c) (Proc.devRef .tc main_v8) = _
  after_results
  exact W2_recip m ρ c
set_option maxHeartbeats 4000000 in
theorem V3_sum (c : Dev nD) :
    V3 m ρ c main_v31 = nsumNarrow ((dat0 (V1 m ρ) c).arrAt 6 cfg0.N) (X m c main_arg1) (X m c main_arg2) := by
  show StableHlo.after hostOps1 (W2 m ρ c) (Proc.devRef .tc main_v31) = _
  after_results
  rw [W2_arg1 m ρ c, W2_arg2 m ρ c, W2_hidden m ρ c]
  rfl
set_option maxHeartbeats 4000000 in
theorem V3_arg6 (c : Dev nD) : V3 m ρ c main_arg6 = X m c main_arg6 := by
  show StableHlo.after hostOps1 (W2 m ρ c) (Proc.devRef .tc main_arg6) = _
  after_results
  exact W2_arg6 m ρ c
set_option maxHeartbeats 4000000 in
theorem V3_arg7 (c : Dev nD) : V3 m ρ c main_arg7 = X m c main_arg7 := by
  show StableHlo.after hostOps1 (W2 m ρ c) (Proc.devRef .tc main_arg7) = _
  after_results
  exact W2_arg7 m ρ c
set_option maxHeartbeats 4000000 in
theorem V3_arg9 (c : Dev nD) : V3 m ρ c main_arg9 = X m c main_arg9 := by
  show StableHlo.after hostOps1 (W2 m ρ c) (Proc.devRef .tc main_arg9) = _
  after_results
  exact W2_arg9 m ρ c
set_option maxHeartbeats 4000000 in
theorem V3_bias (c : Dev nD) : V3 m ρ c main_v32 = biasRow (X m c main_arg8) := by
  show StableHlo.after hostOps1 (W2 m ρ c) (Proc.devRef .tc main_v32) = _
  after_results
  rw [W2_arg8 m ρ c]
  rfl
set_option maxHeartbeats 4000000 in
theorem V3_biasOut (c : Dev nD) : V3 m ρ c main_v33 = biasRowOut (X m c main_arg10) := by
  show StableHlo.after hostOps1 (W2 m ρ c) (Proc.devRef .tc main_v33) = _
  after_results
  rw [W2_arg10 m ρ c]
  rfl

end Cert.KernelIdeal.Hand

end
-- ==== Proof.Cross.lean ====
/-
  The host's computations of this program are the reference's stages.

  Gather, scatter-add, the index wrap-around, the clamp and the broadcasts are the same operations at the same
  dimension records in both programs, so the neighbour sums and the clamped degrees are the reference's stages term by
  term; on the extended reals the widening of the narrow float format is the identity, so the second neighbour sum is the
  reference's too. Read at a node, the reciprocal-degree column is 1 / max(deg, 1), and a bias row is the bias.
-/
import proofs.«137868_j90658169683982_2_alg».proof.Proof.HostTerms
import proofs.«137868_j90658169683982_2_alg».proof.Proof.Gen.ReferenceIdeal.Read
import proofs.«137868_j90658169683982_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Sage
open Idealize.ShloMosaic Idealize.ShloMosaic.ValueIdx

/-! ## Whole arrays -/

section Generic
variable {F : FTy → Type} [FloatOps F]

/-- The first neighbour sum is the reference's. -/
theorem nsum_ref (x0 : (⟨S50000x128, .f32⟩ : BufTy).Contents (Elt F)) (x1 x2 : (⟨S800000, .i32⟩ : BufTy).Contents (Elt F)) :
    nsum x0 x1 x2 = Cert.ReferenceIdeal.Read.val_main_v9 (F := F) x0 x1 x2 := by
  unfold nsum srcIdx Cert.ReferenceIdeal.Read.val_main_v9 Cert.ReferenceIdeal.Read.val_main_v7 Cert.ReferenceIdeal.Read.val_main_cst Cert.ReferenceIdeal.Read.val_main_v8 Cert.ReferenceIdeal.Read.val_main_v6 Cert.ReferenceIdeal.Read.val_main_v5 Cert.ReferenceIdeal.Read.val_main_v4 Cert.ReferenceIdeal.Read.val_main_v1 Cert.ReferenceIdeal.Read.val_main_v0 Cert.ReferenceIdeal.Read.val_main_c Cert.ReferenceIdeal.Read.val_main_v3 Cert.ReferenceIdeal.Read.val_main_v2 Cert.ReferenceIdeal.Read.val_main_c_0
  rfl

/-- The clamped degree is the reference's, in its first layer -/
theorem clampDeg_ref1 (x2 : (⟨S800000, .i32⟩ : BufTy).Contents (Elt F)) : clampDeg x2 = Cert.ReferenceIdeal.Read.val_main_v15 (F := F) x2 := by
  unfold clampDeg Cert.ReferenceIdeal.Read.val_main_v15 Cert.ReferenceIdeal.Read.val_main_v13 Cert.ReferenceIdeal.Read.val_main_v14 Cert.ReferenceIdeal.Read.val_main_v11 Cert.ReferenceIdeal.Read.val_main_v12 Cert.ReferenceIdeal.Read.val_main_v10 Cert.ReferenceIdeal.Read.val_main_cst_1 Cert.ReferenceIdeal.Read.val_main_cst_2 Cert.ReferenceIdeal.Read.val_main_cst_3
  rfl

/-- and in its second. -/
theorem clampDeg_ref2 (x2 : (⟨S800000, .i32⟩ : BufTy).Contents (Elt F)) : clampDeg x2 = Cert.ReferenceIdeal.Read.val_main_v41 (F := F) x2 := by
  unfold clampDeg Cert.ReferenceIdeal.Read.val_main_v41 Cert.ReferenceIdeal.Read.val_main_v39 Cert.ReferenceIdeal.Read.val_main_v40 Cert.ReferenceIdeal.Read.val_main_v37 Cert.ReferenceIdeal.Read.val_main_v38 Cert.ReferenceIdeal.Read.val_main_v36 Cert.ReferenceIdeal.Read.val_main_cst_7 Cert.ReferenceIdeal.Read.val_main_cst_8 Cert.ReferenceIdeal.Read.val_main_cst_9
  rfl

/-- A hidden bias row read at a feature is the bias there. -/
theorem biasRow_apply (b : (⟨S128, .f32⟩ : BufTy).Contents (Elt F)) (f : Fin 128) : biasRow b (ix2 0 f) = b (ix1 f) := by
  unfold biasRow
  refine shapeCast_apply b shapeCasts_S128_S1x128 (ix2 0 f) (ix1 f) ?_
  rw [Shape.rowMajor_val_one, Shape.rowMajor_val_two]
  show f.val = 0 * 128 + f.val
  omega

/-- The output bias row read at a feature is the bias there. -/
theorem biasRowOut_apply (b : (⟨S64, .f32⟩ : BufTy).Contents (Elt F)) (f : Fin 64) : biasRowOut b (ix2 0 f) = b (ix1 f) := by
  unfold biasRowOut
  refine shapeCast_apply b shapeCasts_S64_S1x64 (ix2 0 f) (ix1 f) ?_
  rw [Shape.rowMajor_val_one, Shape.rowMajor_val_two]
  show f.val = 0 * 64 + f.val
  omega

end Generic

/-! ## On the extended reals -/

/-- The second neighbour sum, of the reference's first hidden array, is the reference's: widening is the identity. -/
theorem nsumNarrow_ref (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal)) :
    nsumNarrow (F := Ideal) (Cert.ReferenceIdeal.Read.val_main_v25 (F := Ideal) x0 x1 x2 x3 x4 x5) x1 x2
      = Cert.ReferenceIdeal.Read.val_main_v35 (F := Ideal) x0 x1 x2 x3 x4 x5 := by
  unfold nsumNarrow srcIdx Cert.ReferenceIdeal.Read.val_main_v35 Cert.ReferenceIdeal.Read.val_main_v33 Cert.ReferenceIdeal.Read.val_main_cst_6 Cert.ReferenceIdeal.Read.val_main_v34 Cert.ReferenceIdeal.Read.val_main_v32 Cert.ReferenceIdeal.Read.val_main_v31 Cert.ReferenceIdeal.Read.val_main_v30 Cert.ReferenceIdeal.Read.val_main_v27 Cert.ReferenceIdeal.Read.val_main_v26 Cert.ReferenceIdeal.Read.val_main_c_4 Cert.ReferenceIdeal.Read.val_main_v29 Cert.ReferenceIdeal.Read.val_main_v28 Cert.ReferenceIdeal.Read.val_main_c_5
  rfl

/-- The host's quotient of two arrays at an index is the quotient of the entries. -/
theorem hostDivf_at {s : Shape} {φ : FTy} (a b : FVec Ideal s φ) (i : s.Idx) : Host.divf a b i = Ideal.div (a i) (b i) := rfl

/-- The reciprocal-degree column at node `n` is one over the clamped degree (the reference's first degree count). -/
theorem recip_apply1 (x2 : (⟨S800000, .i32⟩ : BufTy).Contents (Elt Ideal)) (n : Fin 50000) :
    recipDeg (F := Ideal) x2 (ix2 n 0) = Ideal.div 1 (max (Cert.ReferenceIdeal.Read.val_main_v13 (F := Ideal) x2 (ix1 n)) 1) := by
  unfold recipDeg
  rw [broadcastInDim_apply _ bcast_S50000_S50000x1_0 _ (ix2 n 0) (ix1 n) (fun a => match a with
    | ⟨0, _⟩ => by show n.val = if (50000 : Nat) = 1 then 0 else n.val; rw [if_neg (by decide)])]
  rw [hostDivf_at, broadcastInDim_apply _ bcast_S_S50000 _ (ix1 n) ix0 (fun a => a.elim0), constant_apply]
  rw [clampDeg_ref1, Cert.ReferenceIdeal.Read.val_main_v15_apply, Cert.ReferenceIdeal.Read.val_main_v14_apply, Cert.ReferenceIdeal.Read.val_main_cst_3_apply]
  rw [Ideal.maximumf_def, Ideal.ofBits_def, one_f32]

/-- The same against the reference's second degree count. -/
theorem recip_apply2 (x2 : (⟨S800000, .i32⟩ : BufTy).Contents (Elt Ideal)) (n : Fin 50000) :
    recipDeg (F := Ideal) x2 (ix2 n 0) = Ideal.div 1 (max (Cert.ReferenceIdeal.Read.val_main_v39 (F := Ideal) x2 (ix1 n)) 1) := by
  unfold recipDeg
  rw [broadcastInDim_apply _ bcast_S50000_S50000x1_0 _ (ix2 n 0) (ix1 n) (fun a => match a with
    | ⟨0, _⟩ => by show n.val = if (50000 : Nat) = 1 then 0 else n.val; rw [if_neg (by decide)])]
  rw [hostDivf_at, broadcastInDim_apply _ bcast_S_S50000 _ (ix1 n) ix0 (fun a => a.elim0), constant_apply]
  rw [clampDeg_ref2, Cert.ReferenceIdeal.Read.val_main_v41_apply, Cert.ReferenceIdeal.Read.val_main_v40_apply, Cert.ReferenceIdeal.Read.val_main_cst_9_apply]
  rw [Ideal.maximumf_def, Ideal.ofBits_def, one_f32]

end Cert.KernelIdeal.Hand

end
-- ==== Proof.Bridge.lean ====
/-
  The value of the program's result: the reference's result stage of the launch arrays.

  The first call leaves the first layer of the buffers it was entered with; those buffers are the node features, their
  neighbour sum, the reciprocal clamped degrees, the first weights and bias; so its output array is the reference's
  first hidden array (the reference divides the neighbour sum by the clamped degree, this program multiplies by the
  reciprocal: one value on every extended real). The second call is entered with that array, its neighbour sum, the same
  reciprocal degrees, the second weights and bias and the output weight and bias, and leaves the projected second
  layer: the reference's result.
-/
import proofs.«137868_j90658169683982_2_alg».proof.Proof.KRun
import proofs.«137868_j90658169683982_2_alg».proof.Proof.Reg0
import proofs.«137868_j90658169683982_2_alg».proof.Proof.Reg1
import proofs.«137868_j90658169683982_2_alg».proof.Proof.RefIs
import proofs.«137868_j90658169683982_2_alg».proof.Proof.HostK
import proofs.«137868_j90658169683982_2_alg».proof.Proof.Cross

set_option maxRecDepth 16384

noncomputable section

namespace Cert.Sage

/-- Equal operands, equal layers. -/
theorem conv_congr {N : Nat} {h h' s s' : Mat N 128} {r r' : Mat N 1} {ws ws' wn wn' : Mat 128 128} {b b' : Mat 1 128}
    (e1 : h = h') (e2 : s = s') (e3 : r = r') (e4 : ws = ws') (e5 : wn = wn') (e6 : b = b') :
    conv h s r ws wn b = conv h' s' r' ws' wn' b' := by
  subst e1 e2 e3 e4 e5 e6; rfl

/-- Equal operands, equal projections. -/
theorem proj_congr {N : Nat} {y y' : Mat N 128} {wo wo' : Mat 128 64} {bo bo' : Mat 1 64}
    (e1 : y = y') (e2 : wo = wo') (e3 : bo = bo') : proj y wo bo = proj y' wo' bo' := by
  subst e1 e2 e3; rfl

end Cert.Sage

namespace Cert.KernelIdeal.Hand

open Cert.KernelIdeal Cert.KernelIdeal.Gen Cert.Sage
open Idealize.ShloMosaic Idealize.ShloMosaic.TcCoe Idealize.SL.Sem Idealize.ShloMosaic.ValueIdx
open Cert.ReferenceIdeal.RefValue

variable (m : (ℓ : Loc nD τ sig) → Buf (Elt Ideal) ℓ) (ρ : Dev nD → PrngReg)

set_option maxHeartbeats 4000000 in
/-- The first call's output array is the reference's first hidden array. -/
theorem hidden_ref (c : Dev nD) :
    (dat0 (V1 m ρ) c).arrAt 6 cfg0.N = Cert.ReferenceIdeal.Read.val_main_v25 (F := Ideal) (X m c main_arg0) (X m c main_arg1) (X m c main_arg2) (X m c main_arg3) (X m c main_arg4) (X m c main_arg5) :=
  (final_first (V1 m ρ) c).trans
    ((conv_congr (V1_arg0 m ρ c) ((V1_sum m ρ c).trans (nsum_ref _ _ _)) (V1_recip m ρ c) (V1_arg3 m ρ c) (V1_arg4 m ρ c)
        (V1_bias m ρ c)).trans
      (ref_layer1 (X m c main_arg0) (X m c main_arg1) (X m c main_arg2) (X m c main_arg3) (X m c main_arg4) (X m c main_arg5) (recipDeg (X m c main_arg2)) (biasRow (X m c main_arg5))
        (recip_apply1 (X m c main_arg2)) (biasRow_apply (X m c main_arg5))).symm)

set_option maxHeartbeats 4000000 in
/-- The second layer of the buffers the second call is entered with is the reference's second hidden array. -/
theorem layer2_ref (c : Dev nD) :
    layer2 (V3 m ρ) c = Cert.ReferenceIdeal.Read.val_main_v51 (F := Ideal) (X m c main_arg0) (X m c main_arg1) (X m c main_arg2) (X m c main_arg3) (X m c main_arg4) (X m c main_arg5) (X m c main_arg6) (X m c main_arg7) (X m c main_arg8) :=
  (conv_congr ((V3_hidden m ρ c).trans (hidden_ref m ρ c))
      ((V3_sum m ρ c).trans
        ((congrArg (fun h => nsumNarrow (F := Ideal) h (X m c main_arg1) (X m c main_arg2)) (hidden_ref m ρ c)).trans
          (nsumNarrow_ref (X m c main_arg0) (X m c main_arg1) (X m c main_arg2) (X m c main_arg3) (X m c main_arg4) (X m c main_arg5))))
      (V3_recip m ρ c) (V3_arg6 m ρ c) (V3_arg7 m ρ c) (V3_bias m ρ c)).trans
    (ref_layer2 (X m c main_arg0) (X m c main_arg1) (X m c main_arg2) (X m c main_arg3) (X m c main_arg4) (X m c main_arg5) (X m c main_arg6) (X m c main_arg7) (X m c main_arg8) (recipDeg (X m c main_arg2)) (biasRow (X m c main_arg8))
      (recip_apply2 (X m c main_arg2)) (biasRow_apply (X m c main_arg8))).symm

set_option maxHeartbeats 4000000 in
/-- The program's result buffer ends holding the reference's result stage of the launch arrays. -/
theorem result_ref (c : Dev nD) :
    W4 m ρ c (Proc.devRef .tc main_v34) = Cert.ReferenceIdeal.Read.val_main_v55 (F := Ideal) (X m c main_arg0) (X m c main_arg1) (X m c main_arg2) (X m c main_arg3) (X m c main_arg4) (X m c main_arg5) (X m c main_arg6) (X m c main_arg7) (X m c main_arg8) (X m c main_arg9) (X m c main_arg10) :=
  (result_arr m ρ c).trans ((final_second (V3 m ρ) c).trans
    ((proj_congr (layer2_ref m ρ c) (V3_arg9 m ρ c) (V3_biasOut m ρ c)).trans
      (ref_out (X m c main_arg0) (X m c main_arg1) (X m c main_arg2) (X m c main_arg3) (X m c main_arg4) (X m c main_arg5) (X m c main_arg6) (X m c main_arg7) (X m c main_arg8) (X m c main_arg9) (X m c main_arg10) (Cert.ReferenceIdeal.Read.val_main_v51 (F := Ideal) (X m c main_arg0) (X m c main_arg1) (X m c main_arg2) (X m c main_arg3) (X m c main_arg4) (X m c main_arg5) (X m c main_arg6) (X m c main_arg7) (X m c main_arg8)) (biasRowOut (X m c main_arg10)) rfl
        (biasRowOut_apply (X m c main_arg10))).symm))

end Cert.KernelIdeal.Hand

end
-- ==== Proof.lean ====
/-
  Two-layer mean-aggregation graph convolution on 50000 nodes with 128 features and 800000 edges, then a projection to
  64 outputs: a program of two tiled calls with the degree count, the gathers and the scatter-adds on the host,
  against the plain reference, equal on the extended reals.

  Both programs compute, per layer,  relu( h·W_self + mean(h)·W_neigh + b ),  where mean(h) at node n is the sum of the
  source rows of h over the edges into n divided by d(n) = max(deg(n), 1), and then  h₂·W_out + b_out.  The programs
  differ in three ways, none of which changes a value on the extended reals:
    * the reference divides the neighbour sum by d; the tiled program multiplies it by 1/d, computed once. Since
      d ≥ 1 is never zero, s / d = s · d⁻¹ = s · (1 / d) at every extended real s, the infinities included, so the
      precondition (finite inputs) is not used;
    * the tiled program works on 25 tiles of 2000 nodes; every operation of a layer reads one node's rows only, so
      a tile of the result is the layer of the tiles of the operands, and the tiles cover the nodes;
    * the tiled program changes float format between its steps, which is the identity on the extended reals.
  Modules: Spec (the layer formulas and the law s·(1/d) = s/d), Pay (what one tile's body stores), Reg0 / Reg1 (what
  each call leaves in its output array), KRun (the program's run with its result named), HostTerms / HostK (the
  buffers each call is entered with), RefIs (the reference's stages are the layer formulas), Cross (the host's
  computations are the reference's stages), Bridge (the result buffer holds the reference's result stage).
  The idealization rewrote nothing, so `preserves` is trivial.
-/
import proofs.«137868_j90658169683982_2_alg».proof.Defs
import proofs.«137868_j90658169683982_2_alg».proof.Proof.Gen.Kernel
import proofs.«137868_j90658169683982_2_alg».proof.Proof.Gen.Kernel.Skeleton
import proofs.«137868_j90658169683982_2_alg».proof.Proof.Gen.Kernel.Launch
import proofs.«137868_j90658169683982_2_alg».proof.Proof.Gen.Kernel.Points
import proofs.«137868_j90658169683982_2_alg».proof.Proof.Gen.Kernel.Frame
import proofs.«137868_j90658169683982_2_alg».proof.Proof.Gen.KernelIdeal
import proofs.«137868_j90658169683982_2_alg».proof.Proof.Gen.KernelIdeal.Skeleton
import proofs.«137868_j90658169683982_2_alg».proof.Proof.Gen.KernelIdeal.Launch
import proofs.«137868_j90658169683982_2_alg».proof.Proof.Gen.KernelIdeal.Points
import proofs.«137868_j90658169683982_2_alg».proof.Proof.Gen.KernelIdeal.Frame
import proofs.«137868_j90658169683982_2_alg».proof.Proof.Gen.ReferenceIdeal
import proofs.«137868_j90658169683982_2_alg».proof.Proof.Gen.ReferenceIdeal.Run
import proofs.«137868_j90658169683982_2_alg».proof.Proof.Gen.ReferenceIdeal.Read
import proofs.«137868_j90658169683982_2_alg».proof.Proof.Gen.Pre_finite_inputs
import proofs.«137868_j90658169683982_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

namespace SageClaims

/-- The tiled program terminates without a fault and leaves its arguments as launched (word level). -/
theorem frame_k : Cert.frame_Kernel := fun m ρ _ => Cert.Kernel.Gen.frame m ρ

/-- The same read on the extended reals. -/
theorem frame_ki : Cert.frame_KernelIdeal := fun m ρ _ => Cert.KernelIdeal.Gen.frame m ρ

/-- The reference terminates without a fault and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 4000000 in
/-- From memories agreeing on the arguments both programs end with the reference's result stage of the arguments in
    their result buffers. -/
theorem algebraic : Cert.algebraic_KernelIdeal_ReferenceIdeal := by
  intro m ρ m' ρ' _ hagree
  refine ⟨fun c => Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.result_ref m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v55_eq, h0, h1, h2, h3, h4, h5, h6, h7, h8, h9, h10]

end SageClaims

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, SageClaims.preserves, SageClaims.algebraic⟩

end Cert.Proof

end
